-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S50000x32 : Shape := ⟨2, ![50000, 32]⟩
abbrev S2048x64 : Shape := ⟨2, ![2048, 64]⟩
abbrev S1x64 : Shape := ⟨2, ![1, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S2048x64 : S_.BroadcastsInDim S2048x64 (![] : Fin 0 → Fin S2048x64.rank)
  reducesTo_S2048x64_S_d0_1 : S2048x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  main_v18

def fn {F : FTy → Type} [FloatOps F] (main_arg0 : FVec F S50000x64 .f32) (main_arg1 : FVec F S50000x3 .f32) (main_arg2 : IVec S50000x32 32) (main_arg3 : FVec F S2048x64 .f32) (main_arg4 : FVec F S1x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S2048x64 .f32 := Host.absf main_arg3
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_v13 main_v16
-- ==== Kernel.lean ====
abbrev S50000x64 : Shape := ⟨2, ![50000, 64]⟩
abbrev S50000x3 : Shape := ⟨2, ![50000, 3]⟩
abbrev S50000x32 : Shape := ⟨2, ![50000, 32]⟩
abbrev S2048x64 : Shape := ⟨2, ![2048, 64]⟩
abbrev S1x64 : Shape := ⟨2, ![1, 64]⟩
abbrev S_ : Shape := ⟨0, ![]⟩
abbrev S50000x32x1 : Shape := ⟨3, ![50000, 32, 1]⟩
abbrev S50000x32x64 : Shape := ⟨3, ![50000, 32, 64]⟩
abbrev S50000x32x3 : Shape := ⟨3, ![50000, 32, 3]⟩
abbrev S50000x1x3 : Shape := ⟨3, ![50000, 1, 3]⟩
abbrev S50000x2048 : Shape := ⟨2, ![50000, 2048]⟩
abbrev S2000x2048 : Shape := ⟨2, ![2000, 2048]⟩
abbrev S2000x64 : Shape := ⟨2, ![2000, 64]⟩

abbrev nBuf : Space → Nat
  | .hbm => 51
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S50000x32, .i32⟩
  | .hbm, ⟨3, _⟩ => ⟨S2048x64, .f32⟩
  | .hbm, ⟨4, _⟩ => ⟨S1x64, .f32⟩
  | .hbm, ⟨5, _⟩ => ⟨S_, .i32⟩
  | .hbm, ⟨6, _⟩ => ⟨S50000x32, .i32⟩
  | .hbm, ⟨7, _⟩ => ⟨S50000x32, .i1⟩
  | .hbm, ⟨8, _⟩ => ⟨S_, .i32⟩
  | .hbm, ⟨9, _⟩ => ⟨S50000x32, .i32⟩
  | .hbm, ⟨10, _⟩ => ⟨S50000x32, .i32⟩
  | .hbm, ⟨11, _⟩ => ⟨S50000x32, .i32⟩
  | .hbm, ⟨12, _⟩ => ⟨S50000x32x1, .i32⟩
  | .hbm, ⟨13, _⟩ => ⟨S50000x32x64, .f32⟩
  | .hbm, ⟨14, _⟩ => ⟨S_, .i32⟩
  | .hbm, ⟨15, _⟩ => ⟨S50000x32, .i32⟩
  | .hbm, ⟨16, _⟩ => ⟨S50000x32, .i1⟩
  | .hbm, ⟨17, _⟩ => ⟨S_, .i32⟩
  | .hbm, ⟨18, _⟩ => ⟨S50000x32, .i32⟩
  | .hbm, ⟨19, _⟩ => ⟨S50000x32, .i32⟩
  | .hbm, ⟨20, _⟩ => ⟨S50000x32, .i32⟩
  | .hbm, ⟨21, _⟩ => ⟨S50000x32x1, .i32⟩
  | .hbm, ⟨22, _⟩ => ⟨S50000x32x3, .f32⟩
  | .hbm, ⟨23, _⟩ => ⟨S50000x1x3, .f32⟩
  | .hbm, ⟨24, _⟩ => ⟨S50000x32x3, .f32⟩
  | .hbm, ⟨25, _⟩ => ⟨S50000x32x3, .f32⟩
  | .hbm, ⟨26, _⟩ => ⟨S50000x32x3, .f32⟩
  | .hbm, ⟨27, _⟩ => ⟨S_, .f32⟩
  | .hbm, ⟨28, _⟩ => ⟨S50000x32, .f32⟩
  | .hbm, ⟨29, _⟩ => ⟨S50000x32x1, .f32⟩
  | .hbm, ⟨30, _⟩ => ⟨S_, .f32⟩
  | .hbm, ⟨31, _⟩ => ⟨S50000x32x1, .f32⟩
  | .hbm, ⟨32, _⟩ => ⟨S50000x32x1, .i1⟩
  | .hbm, ⟨33, _⟩ => ⟨S_, .f32⟩
  | .hbm, ⟨34, _⟩ => ⟨S50000x32x1, .f32⟩
  | .hbm, ⟨35, _⟩ => ⟨S50000x32x1, .i1⟩
  | .hbm, ⟨36, _⟩ => ⟨S_, .f32⟩
  | .hbm, ⟨37, _⟩ => ⟨S_, .f32⟩
  | .hbm, ⟨38, _⟩ => ⟨S50000x32x1, .f32⟩
  | .hbm, ⟨39, _⟩ => ⟨S50000x32x1, .f32⟩
  | .hbm, ⟨40, _⟩ => ⟨S50000x32x1, .f32⟩
  | .hbm, ⟨41, _⟩ => ⟨S_, .f32⟩
  | .hbm, ⟨42, _⟩ => ⟨S_, .f32⟩
  | .hbm, ⟨43, _⟩ => ⟨S50000x32x1, .f32⟩
  | .hbm, ⟨44, _⟩ => ⟨S50000x32x1, .f32⟩
  | .hbm, ⟨45, _⟩ => ⟨S50000x32x64, .f32⟩
  | .hbm, ⟨46, _⟩ => ⟨S50000x32x64, .f32⟩
  | .hbm, ⟨47, _⟩ => ⟨S50000x32x64, .bf16⟩
  | .hbm, ⟨48, _⟩ => ⟨S50000x2048, .bf16⟩
  | .hbm, ⟨49, _⟩ => ⟨S2048x64, .bf16⟩
  | .hbm, ⟨50, _⟩ => ⟨S50000x64, .f32⟩
  | .local _ .vmem, ⟨0, _⟩ => ⟨S2000x2048, .bf16⟩
  | .local _ .vmem, ⟨1, _⟩ => ⟨S2000x2048, .bf16⟩
  | .local _ .vmem, ⟨2, _⟩ => ⟨S2048x64, .bf16⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S50000x3_S50000x1x3_0_2 : S50000x3.BroadcastsInDim S50000x1x3 (![0, 2] : Fin 2 → Fin S50000x1x3.rank)
  bcast_S50000x1x3_S50000x32x3_0_1_2 : S50000x1x3.BroadcastsInDim S50000x32x3 (![0, 1, 2] : Fin 3 → Fin S50000x32x3.rank)
  reducesTo_S50000x32x3_S50000x32_d2 : S50000x32x3.ReducesTo [2] S50000x32
  h_S_ : 0 < S_.numel
  bcast_S_S50000x32x1 : S_.BroadcastsInDim S50000x32x1 (![] : Fin 0 → Fin S50000x32x1.rank)
  bcast_S50000x32x1_S50000x32x64_0_1_2 : S50000x32x1.BroadcastsInDim S50000x32x64 (![0, 1, 2] : Fin 3 → Fin S50000x32x64.rank)
  bitsLt_bf16_f32 : FTy.bits .bf16 < FTy.bits .f32
  shapeCasts_S50000x32x64_S50000x2048 : S50000x32x64.ShapeCasts S50000x2048
  inb_S2000x2048_S2000x2048_0_0 : ∀ a, (![0, 0] : Fin 2 → Nat) a + S2000x2048.size a ≤ S2000x2048.size a
  h_S2000x2048 : 0 < S2000x2048.numel
  shapeCasts_S2000x2048_S2000x2048 : S2000x2048.ShapeCasts S2000x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x64_S50000x32x1_S50000x32x64_2_0_n_n_0_2_164_wf : GatherDims.WF S50000x64 S50000x32x1 S50000x32x64 [2] [0] [] [0] [] 2 ![1, 64]
  gather_S50000x3_S50000x32x1_S50000x32x3_2_0_n_n_0_2_13_wf : GatherDims.WF S50000x3 S50000x32x1 S50000x32x3 [2] [0] [] [0] [] 2 ![1, 3]
  dot_S2000x2048_S2048x64_S2000x64_1_0_0_1_n_n_wf : DotDims.WF S2000x2048 S2048x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2048.size a ≤ S50000x2048.size a
  hwx0_0 : ∀ i : grid0.Coords, EltTy.bits .bf16 = 32 ∨ (Rect.block (s := S50000x2048) S2000x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)

variable [Facts₀]

def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x3_S50000x32x1_S50000x32x3_2_0_n_n_0_2_13 : GatherDims S50000x3 S50000x32x1 S50000x32x3 where
  offsetDims := [2]
  collapsedSliceDims := [0]
  operandBatchingDims := []
  startIndicesBatchingDims := []
  startIndexMap := [0]
  indexVectorDim := 2
  sliceSizes := ![1, 3]
  wf := gather_S50000x3_S50000x32x1_S50000x32x3_2_0_n_n_0_2_13_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf

abbrev win0_0 : Pipeline.Window sig grid0 :=
  Pipeline.Window.ofSpec (Memref.whole main_v30) S2000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S50000x32 : Shape := ⟨2, ![50000, 32]⟩
abbrev S2048x64 : Shape := ⟨2, ![2048, 64]⟩
abbrev S1x64 : Shape := ⟨2, ![1, 64]⟩
abbrev S_ : Shape := ⟨0, ![]⟩
abbrev S50000x32x1 : Shape := ⟨3, ![50000, 32, 1]⟩
abbrev S50000x32x64 : Shape := ⟨3, ![50000, 32, 64]⟩
abbrev S50000x1x3 : Shape := ⟨3, ![50000, 1, 3]⟩
abbrev S50000x32x3 : Shape := ⟨3, ![50000, 32, 3]⟩
abbrev S50000x2048 : Shape := ⟨2, ![50000, 2048]⟩

abbrev nBuf : Space → Nat
  | .hbm => 59
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S50000x32, .i32⟩
  | .hbm, ⟨3, _⟩ => ⟨S2048x64, .f32⟩
  | .hbm, ⟨4, _⟩ => ⟨S1x64, .f32⟩
  | .hbm, ⟨5, _⟩ => ⟨S_, .i32⟩
  | .hbm, ⟨6, _⟩ => ⟨S50000x32, .i32⟩
  | .hbm, ⟨7, _⟩ => ⟨S50000x32, .i1⟩
  | .hbm, ⟨8, _⟩ => ⟨S_, .i32⟩
  | .hbm, ⟨9, _⟩ => ⟨S50000x32, .i32⟩
  | .hbm, ⟨10, _⟩ => ⟨S50000x32, .i32⟩
  | .hbm, ⟨11, _⟩ => ⟨S50000x32, .i32⟩
  | .hbm, ⟨12, _⟩ => ⟨S50000x32x1, .i32⟩
  | .hbm, ⟨13, _⟩ => ⟨S50000x32x64, .f32⟩
  | .hbm, ⟨14, _⟩ => ⟨S50000x1x3, .f32⟩
  | .hbm, ⟨15, _⟩ => ⟨S_, .i32⟩
  | .hbm, ⟨16, _⟩ => ⟨S50000x32, .i32⟩
  | .hbm, ⟨17, _⟩ => ⟨S50000x32, .i1⟩
  | .hbm, ⟨18, _⟩ => ⟨S_, .i32⟩
  | .hbm, ⟨19, _⟩ => ⟨S50000x32, .i32⟩
  | .hbm, ⟨20, _⟩ => ⟨S50000x32, .i32⟩
  | .hbm, ⟨21, _⟩ => ⟨S50000x32, .i32⟩
  | .hbm, ⟨22, _⟩ => ⟨S50000x32x1, .i32⟩
  | .hbm, ⟨23, _⟩ => ⟨S50000x32x3, .f32⟩
  | .hbm, ⟨24, _⟩ => ⟨S50000x32x3, .f32⟩
  | .hbm, ⟨25, _⟩ => ⟨S50000x32x3, .f32⟩
  | .hbm, ⟨26, _⟩ => ⟨S50000x32x3, .f32⟩
  | .hbm, ⟨27, _⟩ => ⟨S_, .f32⟩
  | .hbm, ⟨28, _⟩ => ⟨S50000x32, .f32⟩
  | .hbm, ⟨29, _⟩ => ⟨S50000x32x1, .f32⟩
  | .hbm, ⟨30, _⟩ => ⟨S_, .f32⟩
  | .hbm, ⟨31, _⟩ => ⟨S50000x32x1, .f32⟩
  | .hbm, ⟨32, _⟩ => ⟨S50000x32x1, .i1⟩
  | .hbm, ⟨33, _⟩ => ⟨S_, .f32⟩
  | .hbm, ⟨34, _⟩ => ⟨S50000x32x1, .f32⟩
  | .hbm, ⟨35, _⟩ => ⟨S50000x32x1, .i1⟩
  | .hbm, ⟨36, _⟩ => ⟨S_, .f32⟩
  | .hbm, ⟨37, _⟩ => ⟨S_, .f32⟩
  | .hbm, ⟨38, _⟩ => ⟨S50000x32x1, .f32⟩
  | .hbm, ⟨39, _⟩ => ⟨S50000x32x1, .f32⟩
  | .hbm, ⟨40, _⟩ => ⟨S50000x32x1, .f32⟩
  | .hbm, ⟨41, _⟩ => ⟨S_, .f32⟩
  | .hbm, ⟨42, _⟩ => ⟨S_, .f32⟩
  | .hbm, ⟨43, _⟩ => ⟨S50000x32x1, .f32⟩
  | .hbm, ⟨44, _⟩ => ⟨S50000x32x1, .f32⟩
  | .hbm, ⟨45, _⟩ => ⟨S50000x32x64, .f32⟩
  | .hbm, ⟨46, _⟩ => ⟨S50000x32x64, .f32⟩
  | .hbm, ⟨47, _⟩ => ⟨S50000x2048, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S_, .f32⟩
  | .hbm, ⟨53, _⟩ => ⟨S50000x64, .f32⟩
  | .hbm, ⟨54, _⟩ => ⟨S50000x64, .i1⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S50000x3_S50000x1x3_0_2 : S50000x3.BroadcastsInDim S50000x1x3 (![0, 2] : Fin 2 → Fin S50000x1x3.rank)
  bcast_S50000x1x3_S50000x32x3_0_1_2 : S50000x1x3.BroadcastsInDim S50000x32x3 (![0, 1, 2] : Fin 3 → Fin S50000x32x3.rank)
  reducesTo_S50000x32x3_S50000x32_d2 : S50000x32x3.ReducesTo [2] S50000x32
  h_S_ : 0 < S_.numel
  bcast_S_S50000x32x1 : S_.BroadcastsInDim S50000x32x1 (![] : Fin 0 → Fin S50000x32x1.rank)
  bcast_S50000x32x1_S50000x32x64_0_1_2 : S50000x32x1.BroadcastsInDim S50000x32x64 (![0, 1, 2] : Fin 3 → Fin S50000x32x64.rank)
  shapeCasts_S50000x32x64_S50000x2048 : S50000x32x64.ShapeCasts S50000x2048
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x64_S50000x32x1_S50000x32x64_2_0_n_n_0_2_164_wf : GatherDims.WF S50000x64 S50000x32x1 S50000x32x64 [2] [0] [] [0] [] 2 ![1, 64]
  gather_S50000x3_S50000x32x1_S50000x32x3_2_0_n_n_0_2_13_wf : GatherDims.WF S50000x3 S50000x32x1 S50000x32x3 [2] [0] [] [0] [] 2 ![1, 3]
  dot_S50000x2048_S2048x64_S50000x64_1_0_0_1_n_n_wf : DotDims.WF S50000x2048 S2048x64 S50000x64 [1] [0] [0] [1] [] []

variable [Facts₀]

def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x3_S50000x32x1_S50000x32x3_2_0_n_n_0_2_13 : GatherDims S50000x3 S50000x32x1 S50000x32x3 where
  offsetDims := [2]
  collapsedSliceDims := [0]
  operandBatchingDims := []
  startIndicesBatchingDims := []
  startIndexMap := [0]
  indexVectorDim := 2
  sliceSizes := ![1, 3]
  wf := gather_S50000x3_S50000x32x1_S50000x32x3_2_0_n_n_0_2_13_wf
def dot_S50000x2048_S2048x64_S50000x64_1_0_0_1_n_n : DotDims S50000x2048 S2048x64 S50000x64 where
  lhsContracting := [1]
  rhsContracting := [0]
  lhsNonContracting := [0]
  rhsNonContracting := [1]
  lhsBatch := []
  rhsBatch := []
  wf := dot_S50000x2048_S2048x64_S50000x64_1_0_0_1_n_n_wf

class Facts : Prop extends Facts₀ where

variable [Facts]
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«162068_j70523363000699_2_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.Spec.lean ====
/-
  What both programs compute, entry by entry, on the extended reals.

  Every point p has a row of 2048 numbers A[p, ·] (its 32 neighbours' 64 features, each divided by the distance to
  that neighbour). The result's entry (p, q) is the leaky slope of the dense layer's entry: the sum over k of
  A[p, k] · W[k, q], plus the bias b[q], kept where it is at least zero and multiplied by the slope constant
  elsewhere. Both constants are the values their f32 words denote; the same words occur in both programs, so they
  are never evaluated.
-/
import proofs.«162068_j70523363000699_2_alg».proof.Proof.LibDenseLayer
import Idealize.ShloMosaic.PureOps.Ideal
import Idealize.ShloMosaic.Lib.ValueIdx

noncomputable section

namespace Cert.Gnn.Spec

open Idealize.ShloMosaic Idealize.ShloMosaic.ValueIdx

/-- The leaky slope on an extended real: x where x is at least the zero word's value, the slope word's value times
    x elsewhere. -/
def leaky (x : EReal) : EReal :=
  Scalar.select (Ideal.cmp .oge x (Ideal.ofBits .f32 0x00000000#32)) x (Ideal.ofBits .f32 0x3C23D70A#32 * x)

/-- The result's entry (p, q): the leaky slope of the dense layer's entry. -/
def out {M K N : Nat} (A : Fin M → Fin K → EReal) (W : Fin K → Fin N → EReal) (b : Fin N → EReal)
    (p : Fin M) (q : Fin N) : EReal :=
  leaky (Cert.Bridge.Spec.head A W b p q)

/-- Row p of the result depends on row p of A alone: re-indexing the rows of A re-indexes the rows of the result. -/
theorem out_rows {M M' K N : Nat} (σ : Fin M' → Fin M) (A : Fin M → Fin K → EReal) (W : Fin K → Fin N → EReal)
    (b : Fin N → EReal) : out (fun r => A (σ r)) W b = fun r => out A W b (σ r) := rfl

/-- The slope as vector code spells it — compare with a splat of the zero word, multiply by a splat of the slope
    word, select — read at an index. -/
theorem leaky_splat_apply {s : Shape} (v : FVec Ideal s .f32) (i : s.Idx) :
    select (cmpf .oge v (broadcast s (Scalar.ofBits (F := Ideal) .f32 0x00000000#32))) v
        (mulf (broadcast s (Scalar.ofBits (F := Ideal) .f32 0x3C23D70A#32)) v) i
      = leaky (v i) := rfl

end Cert.Gnn.Spec

end
-- ==== Proof.KernelPayload.lean ====
/-
  The kernel body's stored value at an entry.

  At one grid point the body holds a block of 2000 rows of A, the whole weight matrix and the bias row. What it
  stores at entry (p, q) of its output block is the matrix unit's product into a zero accumulator read at (p, q) —
  the sum over k of the block's A[p, k] · W[k, q] — plus the bias row's q-th entry, under the leaky slope.
-/
import proofs.«162068_j70523363000699_2_alg».proof.Proof.Gen.KernelIdeal
import proofs.«162068_j70523363000699_2_alg».proof.Proof.Gen.KernelIdeal.Skeleton
import proofs.«162068_j70523363000699_2_alg».proof.Proof.Spec
import Idealize.ShloMosaic.Lib.Pipeline.Value

noncomputable section

namespace Cert.Gnn.Kernel

open Cert.KernelIdeal Cert.KernelIdeal.Gen Idealize.ShloMosaic Idealize.ShloMosaic.ValueIdx Cert.Bridge

/-- The body's stored value at (p, q) is the specification's entry over the loaded blocks. -/
theorem pay_apply (x0 : FVec Ideal S2000x2048 .bf16) (x1 : FVec Ideal S2048x64 .bf16) (x2 : FVec Ideal S1x64 .f32)
    (p : Fin 2000) (q : Fin 64) :
    k0_pay1 (F := Ideal) x0 x1 x2 (ix2 p q) = Spec.out (LayerAt.mat x0) (LayerAt.mat x1) (LayerAt.row x2) p q := by
  have e0 : shapeCast S2000x2048 x0 shapeCasts_S2000x2048_S2000x2048 = x0 := shapeCast_self _ _
  have e1 : shapeCast S2048x64 x1 shapeCasts_S2048x64_S2048x64 = x1 := shapeCast_self _ _
  unfold k0_pay1
  refine (Spec.leaky_splat_apply _ (ix2 p q)).trans (congrArg Spec.leaky ?_)
  rw [e0, e1]
  exact LayerAt.head_apply (M := 2000) (K := 2048) (N := 64) none x0 x1 x2 _ p q

/-- The same at any index of the block, through its two coordinates. -/
theorem pay_at (x0 : FVec Ideal S2000x2048 .bf16) (x1 : FVec Ideal S2048x64 .bf16) (x2 : FVec Ideal S1x64 .f32)
    (y : S2000x64.Idx) :
    k0_pay1 (F := Ideal) x0 x1 x2 y = Spec.out (LayerAt.mat x0) (LayerAt.mat x1) (LayerAt.row x2) (y 0) (y 1) :=
  (congrArg (k0_pay1 (F := Ideal) x0 x1 x2) (eq_ix2 y)).trans (pay_apply x0 x1 x2 (y 0) (y 1))

end Cert.Gnn.Kernel

end
-- ==== Proof.KernelArray.lean ====
/-
  From the kernel's blocks to its whole result array.

  The grid has 25 points. Point t stages rows 2000·t … 2000·t + 1999 of A, the whole weight matrix and the bias row,
  and writes rows 2000·t … 2000·t + 1999 of the result. The value it writes at a row depends on that row of A alone, so
  what point t writes back is exactly block t of ONE function of the whole arrays: entry (r, q) of the result is the
  specification's entry over row r of A. The 25 blocks tile the 50000 rows, so after the run the result array is that
  function everywhere.
-/
import proofs.«162068_j70523363000699_2_alg».proof.Proof.Gen.KernelIdeal.Value
import proofs.«162068_j70523363000699_2_alg».proof.Proof.KernelPayload

noncomputable section

namespace Cert.Gnn.Kernel

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (m : (ℓ : Loc nD τ sig) → Buf (Elt Ideal) ℓ) (ρ : Dev nD → PrngReg)

/-- The whole result array as one function of the three arrays the region stages: entry (r, q) is the specification's
    entry over row r of A. -/
def G (A : S50000x2048.Idx → EReal) (W : S2048x64.Idx → EReal) (b : S1x64.Idx → EReal) : S50000x64.Idx → EReal :=
  fun j => Spec.out (LayerAt.mat A) (LayerAt.mat W) (LayerAt.row b) (j 0) (j 1)

theorem origin : (![0, 0] : Fin 2 → Nat) = fun _ => 0 := funext fun a => by fin_cases a <;> rfl

/-- The index maps over the 25 points: A's block moves with the result's block along the rows and starts at column
    0; the weights and the bias are always their whole arrays; the result's block starts at column 0 and its row
    block number is at most 24. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every row block is some point's. -/
theorem block_onto : ∀ q0 : Fin 25, ∃ t : Fin cfg0.N, win0_3.index t = ![q0.val, 0] :=
  (by decide +kernel : ∀ q0 : Fin 25, ∃ t : Fin grid0.N, win0_3.index t = ![q0.val, 0])

/-- A's block at point t, read at an index of the block, is A at the index's place in the whole array. -/
theorem read_A (c : Dev nD) (t : Fin cfg0.N) (y0 : ((cfg0.win 0).xblock (grid0.coords t)).Idx) :
    iblk m c 0 t y0 = V m c main_v30 (((cfg0.win 0).blk t).view.emb y0) := by
  unfold iblk; rw [View.read_apply, cast_eq]

/-- The weights' block at any point is the whole weight matrix. -/
theorem read_W (c : Dev nD) (t : Fin cfg0.N) (y1 : ((cfg0.win 1).xblock (grid0.coords t)).Idx) :
    iblk m c 1 t y1 = V m c main_v31 (((cfg0.win 1).blk t).view.emb y1) := by
  unfold iblk; rw [View.read_apply, cast_eq]

/-- The bias block at any point is the whole bias row. -/
theorem read_b (c : Dev nD) (t : Fin cfg0.N) (y2 : ((cfg0.win 2).xblock (grid0.coords t)).Idx) :
    iblk m c 2 t y2 = V m c main_arg4 (((cfg0.win 2).blk t).view.emb y2) := by
  unfold iblk; rw [View.read_apply, cast_eq]

/-- What point t writes back is block t of G of the arrays as the region finds them. -/
theorem flushed_eq (c : Dev nD) (t : Fin cfg0.N) :
    (dats m 0 c).flushed 3 t
      = ((cfg0.win 3).blk t).view.read (Elt Ideal) (G (V m c main_v30) (V m c main_v31) (V m c main_arg4)) := by
  rw [Cert.KernelIdeal.Value.flushed3]
  unfold out0_3
  rw [View.canon_unit_zero origin]
  simp only [View.ld_unit_zero (S := S2000x2048) origin, View.ld_unit_zero (S := S2048x64) origin,
    View.ld_unit_zero (S := S1x64) origin]
  obtain ⟨e0, e1, e2, e3, e4, e5, e6, e7⟩ := block_indices t
  funext y
  refine (pay_at (iblk m c 0 t) (iblk m c 1 t) (iblk m c 2 t) ((win0 3).xinj (grid0.coords t) y)).trans ?_
  rw [View.read_apply, cast_eq]
  unfold G Spec.out Cert.Bridge.Spec.head
  refine congrArg Spec.leaky (congrArg₂ (· + ·) (Finset.sum_congr rfl fun k _ => congrArg₂ (· * ·) ?_ ?_) ?_)
  · refine (read_A m c t _).trans (congrArg (V m c main_v30) (funext fun a => Fin.ext ?_))
    match a with
    | ⟨0, _⟩ =>
      show win0_0.index t (0 : Fin 2) * 2000 + 1 * (y 0).val = win0_3.index t (0 : Fin 2) * 2000 + 1 * (y 0).val
      omega
    | ⟨1, _⟩ =>
      show win0_0.index t (1 : Fin 2) * 2048 + 1 * k.val = k.val
      omega
  · refine (read_W m c t _).trans (congrArg (V m c main_v31) (funext fun a => Fin.ext ?_))
    match a with
    | ⟨0, _⟩ =>
      show win0_1.index t (0 : Fin 2) * 2048 + 1 * k.val = k.val
      omega
    | ⟨1, _⟩ =>
      show win0_1.index t (1 : Fin 2) * 64 + 1 * (y 1).val = win0_3.index t (1 : Fin 2) * 64 + 1 * (y 1).val
      omega
  · refine (read_b m c t _).trans (congrArg (V m c main_arg4) (funext fun a => Fin.ext ?_))
    match a with
    | ⟨0, _⟩ =>
      show win0_2.index t (0 : Fin 2) * 1 + 1 * 0 = 0
      omega
    | ⟨1, _⟩ =>
      show win0_2.index t (1 : Fin 2) * 64 + 1 * (y 1).val = win0_3.index t (1 : Fin 2) * 64 + 1 * (y 1).val
      omega

/-- An index of the result array is in point t's block iff each coordinate is in the block's range on its axis. -/
theorem mem_block (t : Fin cfg0.N) (i : S50000x64.Idx) :
    i ∈ ((cfg0.win 3).blk t).view.set
      ↔ ∀ a : Fin 2, win0_3.index t a * S2000x64.size a ≤ (i a).val ∧ (i a).val < win0_3.index t a * S2000x64.size a + S2000x64.size a := by
  show i ∈ ((View.whole main_v32).slice (win0_3.rect t)).set ↔ _
  rw [View.set_slice_whole, Rect.mem_set_unit]
  exact Iff.rfl

/-- The 25 blocks cover every index of the result array: row r lies in block r / 2000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := block_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- The result array after the run is G of the arrays as the region finds them. -/
theorem final (c : Dev nD) :
    (dats m 0 c).arrAt 3 cfg0.N = G (V m c main_v30) (V m c main_v31) (V m c main_arg4) :=
  (dats m 0 c).arrAt_eq_of_cover 3 (G (V m c main_v30) (V m c main_v31) (V m c main_arg4))
    (fun t _ => flushed_eq m c t) covered

end Cert.Gnn.Kernel

end
-- ==== Proof.RefRun.lean ====
/-
  The reference program as one straight line of host operations, and its run.

  The reference computes, on the host alone: the neighbour rows of the feature table and of the position table
  (two gathers through the wrapped neighbour index), the squared distance of every point to each of its neighbours
  (a sum over the three coordinates), the distance with the value one half where the squared distance is zero, the
  neighbour features divided by that distance and laid out as one row of 2048 numbers per point, the product of that
  matrix with the weights, the bias row added to every row, and the leaky slope applied entry by entry. The three
  helper functions it calls (two selections and the leaky slope) are run on their own buffers at the call sites, so
  the whole program is a list of fifty-four operations, each writing one buffer of its own. Every weakly fair
  execution therefore terminates, and each buffer ends at the value the list's operations compute for it from the
  launch contents.
-/
import proofs.«162068_j70523363000699_2_alg».proof.Proof.Gen.ReferenceIdeal
import Idealize.ShloMosaic.Lib.StableHlo.Run

noncomputable section

namespace Cert.Gnn.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's fifty-four operations in program order; a called helper's operations stand at its call site,
    over that call's own buffers. -/
abbrev ops : List (HloOp τ sig (Elt F)) :=
  [ nullary main_c (constantI S_ 32 0#32),
    unary main_c main_v0 (broadcastInDim S50000x32 ![] bcast_S_S50000x32 : (⟨S_, .i32⟩ : BufTy).Contents (Elt F) → (⟨S50000x32, .i32⟩ : BufTy).Contents (Elt F)),
    binary main_arg2 main_v0 main_v1 (cmpi .slt : (⟨S50000x32, .i32⟩ : BufTy).Contents (Elt F) → (⟨S50000x32, .i32⟩ : BufTy).Contents (Elt F) → (⟨S50000x32, .i1⟩ : BufTy).Contents (Elt F)),
    nullary main_c_0 (constantI S_ 32 50000#32),
    unary main_c_0 main_v2 (broadcastInDim S50000x32 ![] bcast_S_S50000x32 : (⟨S_, .i32⟩ : BufTy).Contents (Elt F) → (⟨S50000x32, .i32⟩ : BufTy).Contents (Elt F)),
    binary main_arg2 main_v2 main_v3 (addi : (⟨S50000x32, .i32⟩ : BufTy).Contents (Elt F) → (⟨S50000x32, .i32⟩ : BufTy).Contents (Elt F) → (⟨S50000x32, .i32⟩ : BufTy).Contents (Elt F)),
    ternary main_v1 main_v3 main_arg2 main_v4 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_v4 main_v5 (broadcastInDim S50000x32x1 ![0, 1] bcast_S50000x32_S50000x32x1_0_1 : (⟨S50000x32, .i32⟩ : BufTy).Contents (Elt F) → (⟨S50000x32x1, .i32⟩ : BufTy).Contents (Elt F)),
    binary main_arg0 main_v5 main_v6 ((fun x i => Host.gather gather_S50000x64_S50000x32x1_S50000x32x64_2_0_n_n_0_2_164 x i) : (⟨S50000x64, .f32⟩ : BufTy).Contents (Elt F) → (⟨S50000x32x1, .i32⟩ : BufTy).Contents (Elt F) → (⟨S50000x32x64, .f32⟩ : BufTy).Contents (Elt F)),
    unary main_arg1 main_v7 (broadcastInDim S50000x1x3 ![0, 2] bcast_S50000x3_S50000x1x3_0_2 : (⟨S50000x3, .f32⟩ : BufTy).Contents (Elt F) → (⟨S50000x1x3, .f32⟩ : BufTy).Contents (Elt F)),
    nullary main_c_1 (constantI S_ 32 0#32),
    unary main_c_1 main_v8 (broadcastInDim S50000x32 ![] bcast_S_S50000x32 : (⟨S_, .i32⟩ : BufTy).Contents (Elt F) → (⟨S50000x32, .i32⟩ : BufTy).Contents (Elt F)),
    binary main_arg2 main_v8 main_v9 (cmpi .slt : (⟨S50000x32, .i32⟩ : BufTy).Contents (Elt F) → (⟨S50000x32, .i32⟩ : BufTy).Contents (Elt F) → (⟨S50000x32, .i1⟩ : BufTy).Contents (Elt F)),
    nullary main_c_2 (constantI S_ 32 50000#32),
    unary main_c_2 main_v10 (broadcastInDim S50000x32 ![] bcast_S_S50000x32 : (⟨S_, .i32⟩ : BufTy).Contents (Elt F) → (⟨S50000x32, .i32⟩ : BufTy).Contents (Elt F)),
    binary main_arg2 main_v10 main_v11 (addi : (⟨S50000x32, .i32⟩ : BufTy).Contents (Elt F) → (⟨S50000x32, .i32⟩ : BufTy).Contents (Elt F) → (⟨S50000x32, .i32⟩ : BufTy).Contents (Elt F)),
    ternary main_v9 main_v11 main_arg2 main_v12 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_v12 main_v13 (broadcastInDim S50000x32x1 ![0, 1] bcast_S50000x32_S50000x32x1_0_1 : (⟨S50000x32, .i32⟩ : BufTy).Contents (Elt F) → (⟨S50000x32x1, .i32⟩ : BufTy).Contents (Elt F)),
    binary main_arg1 main_v13 main_v14 ((fun x i => Host.gather gather_S50000x3_S50000x32x1_S50000x32x3_2_0_n_n_0_2_13 x i) : (⟨S50000x3, .f32⟩ : BufTy).Contents (Elt F) → (⟨S50000x32x1, .i32⟩ : BufTy).Contents (Elt F) → (⟨S50000x32x3, .f32⟩ : BufTy).Contents (Elt F)),
    unary main_v7 main_v15 (broadcastInDim S50000x32x3 ![0, 1, 2] bcast_S50000x1x3_S50000x32x3_0_1_2 : (⟨S50000x1x3, .f32⟩ : BufTy).Contents (Elt F) → (⟨S50000x32x3, .f32⟩ : BufTy).Contents (Elt F)),
    binary main_v15 main_v14 main_v16 (subf : (⟨S50000x32x3, .f32⟩ : BufTy).Contents (Elt F) → (⟨S50000x32x3, .f32⟩ : BufTy).Contents (Elt F) → (⟨S50000x32x3, .f32⟩ : BufTy).Contents (Elt F)),
    binary main_v16 main_v16 main_v17 (mulf : (⟨S50000x32x3, .f32⟩ : BufTy).Contents (Elt F) → (⟨S50000x32x3, .f32⟩ : BufTy).Contents (Elt F) → (⟨S50000x32x3, .f32⟩ : BufTy).Contents (Elt F)),
    nullary main_cst (constant S_ .f32 0x00000000#32),
    binary main_v17 main_cst main_v18 ((fun x v => Host.reduceAdd x v reducesTo_S50000x32x3_S50000x32_d2 h_S_) : (⟨S50000x32x3, .f32⟩ : BufTy).Contents (Elt F) → (⟨S_, .f32⟩ : BufTy).Contents (Elt F) → (⟨S50000x32, .f32⟩ : BufTy).Contents (Elt F)),
    unary main_v18 main_v19 (broadcastInDim S50000x32x1 ![0, 1] bcast_S50000x32_S50000x32x1_0_1 : (⟨S50000x32, .f32⟩ : BufTy).Contents (Elt F) → (⟨S50000x32x1, .f32⟩ : BufTy).Contents (Elt F)),
    nullary main_cst_3 (constant S_ .f32 0x00000000#32),
    unary main_cst_3 main_v20 (broadcastInDim S50000x32x1 ![] bcast_S_S50000x32x1 : (⟨S_, .f32⟩ : BufTy).Contents (Elt F) → (⟨S50000x32x1, .f32⟩ : BufTy).Contents (Elt F)),
    binary main_v19 main_v20 main_v21 (cmpf .oeq : (⟨S50000x32x1, .f32⟩ : BufTy).Contents (Elt F) → (⟨S50000x32x1, .f32⟩ : BufTy).Contents (Elt F) → (⟨S50000x32x1, .i1⟩ : BufTy).Contents (Elt F)),
    nullary main_cst_4 (constant S_ .f32 0x00000000#32),
    unary main_cst_4 main_v22 (broadcastInDim S50000x32x1 ![] bcast_S_S50000x32x1 : (⟨S_, .f32⟩ : BufTy).Contents (Elt F) → (⟨S50000x32x1, .f32⟩ : BufTy).Contents (Elt F)),
    binary main_v19 main_v22 main_v23 (cmpf .oeq : (⟨S50000x32x1, .f32⟩ : BufTy).Contents (Elt F) → (⟨S50000x32x1, .f32⟩ : BufTy).Contents (Elt F) → (⟨S50000x32x1, .i1⟩ : BufTy).Contents (Elt F)),
    nullary main_cst_5 (constant S_ .f32 0x3F800000#32),
    TRef.unary (.of main_cst_5 : TRef sig ⟨S_, .f32⟩) (.of main_call0_v0 : TRef sig ⟨S_, .f32⟩) id,
    TRef.unary (.of main_call0_v0 : TRef sig ⟨S_, .f32⟩) (.of main_call0_v1 : TRef sig ⟨S50000x32x1, .f32⟩) (broadcastInDim S50000x32x1 ![] bcast_S_S50000x32x1),
    TRef.ternary (.of main_v23 : TRef sig ⟨S50000x32x1, .i1⟩) (.of main_call0_v1 : TRef sig ⟨S50000x32x1, .f32⟩) (.of main_v19 : TRef sig ⟨S50000x32x1, .f32⟩) (.of main_v24 : TRef sig ⟨S50000x32x1, .f32⟩) select,
    unary main_v24 main_v25 (Host.sqrt : (⟨S50000x32x1, .f32⟩ : BufTy).Contents (Elt F) → (⟨S50000x32x1, .f32⟩ : BufTy).Contents (Elt F)),
    nullary main_cst_6 (constant S_ .f32 0x3F000000#32),
    TRef.unary (.of main_cst_6 : TRef sig ⟨S_, .f32⟩) (.of main_call1_v0 : TRef sig ⟨S_, .f32⟩) id,
    TRef.unary (.of main_call1_v0 : TRef sig ⟨S_, .f32⟩) (.of main_call1_v1 : TRef sig ⟨S50000x32x1, .f32⟩) (broadcastInDim S50000x32x1 ![] bcast_S_S50000x32x1),
    TRef.ternary (.of main_v21 : TRef sig ⟨S50000x32x1, .i1⟩) (.of main_call1_v1 : TRef sig ⟨S50000x32x1, .f32⟩) (.of main_v25 : TRef sig ⟨S50000x32x1, .f32⟩) (.of main_v26 : TRef sig ⟨S50000x32x1, .f32⟩) select,
    unary main_v26 main_v27 (broadcastInDim S50000x32x64 ![0, 1, 2] bcast_S50000x32x1_S50000x32x64_0_1_2 : (⟨S50000x32x1, .f32⟩ : BufTy).Contents (Elt F) → (⟨S50000x32x64, .f32⟩ : BufTy).Contents (Elt F)),
    binary main_v6 main_v27 main_v28 (Host.divf : (⟨S50000x32x64, .f32⟩ : BufTy).Contents (Elt F) → (⟨S50000x32x64, .f32⟩ : BufTy).Contents (Elt F) → (⟨S50000x32x64, .f32⟩ : BufTy).Contents (Elt F)),
    reshape main_v28 main_v29 rfl shapeCasts_S50000x32x64_S50000x2048,
    binary main_v29 main_arg3 main_v30 ((fun l r => Host.dotGeneral dot_S50000x2048_S2048x64_S50000x64_1_0_0_1_n_n none l r) : (⟨S50000x2048, .f32⟩ : BufTy).Contents (Elt F) → (⟨S2048x64, .f32⟩ : BufTy).Contents (Elt F) → (⟨S50000x64, .f32⟩ : BufTy).Contents (Elt F)),
    unary main_arg4 main_v31 (broadcastInDim S50000x64 ![0, 1] bcast_S1x64_S50000x64_0_1 : (⟨S1x64, .f32⟩ : BufTy).Contents (Elt F) → (⟨S50000x64, .f32⟩ : BufTy).Contents (Elt F)),
    binary main_v30 main_v31 main_v32 (addf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x3C23D70A#32),
    TRef.nullary (.of main_call2_cst : TRef sig ⟨S_, .f32⟩) (constant S_ .f32 0x00000000#32),
    TRef.unary (.of main_call2_cst : TRef sig ⟨S_, .f32⟩) (.of main_call2_v0 : TRef sig ⟨S50000x64, .f32⟩) (broadcastInDim S50000x64 ![] bcast_S_S50000x64),
    TRef.binary (.of main_v32 : TRef sig ⟨S50000x64, .f32⟩) (.of main_call2_v0 : TRef sig ⟨S50000x64, .f32⟩) (.of main_call2_v1 : TRef sig ⟨S50000x64, .i1⟩) (cmpf .oge),
    TRef.unary (.of main_cst_7 : TRef sig ⟨S_, .f32⟩) (.of main_call2_v2 : TRef sig ⟨S_, .f32⟩) id,
    TRef.unary (.of main_call2_v2 : TRef sig ⟨S_, .f32⟩) (.of main_call2_v3 : TRef sig ⟨S50000x64, .f32⟩) (broadcastInDim S50000x64 ![] bcast_S_S50000x64),
    TRef.binary (.of main_call2_v3 : TRef sig ⟨S50000x64, .f32⟩) (.of main_v32 : TRef sig ⟨S50000x64, .f32⟩) (.of main_call2_v4 : TRef sig ⟨S50000x64, .f32⟩) mulf,
    TRef.ternary (.of main_call2_v1 : TRef sig ⟨S50000x64, .i1⟩) (.of main_v32 : TRef sig ⟨S50000x64, .f32⟩) (.of main_call2_v4 : TRef sig ⟨S50000x64, .f32⟩) (.of main_v33 : TRef sig ⟨S50000x64, .f32⟩) select ]

set_option maxRecDepth 4096 in
/-- The program is that straight line: the helpers' bodies opened at their calls and sequencing re-associated. -/
theorem main_eq (c : Dev nD) : main (F := F) c = seq ops := by
  simp only [main, fn_where.body, fn_leaky_relu.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the tensor core's memory only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., unary_bufs_sub .., binary_bufs_sub .., reshape_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- From any memory with zero counters every weakly fair execution of the reference terminates, and each buffer
    ends at what the operations compute for it from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Gnn.RefRun

end
-- ==== Proof.RefTerm.lean ====
/-
  The reference's result as one term of its five arguments.

  The pieces, in the program's order: the neighbour index with negative entries wrapped by the table length; the
  difference between a point's position and its neighbour's; the squared distance (the sum of the three squared
  coordinates), kept with a trailing unit axis; the distance, one half where the squared distance is zero and the
  square root elsewhere (the root taken of one where the squared distance is zero); the neighbour features divided
  by the distance; that quotient laid out as 2048 numbers per point; the product with the weights plus the bias row;
  the leaky slope. The run's fold over the fifty-four operations, read at the result buffer, is this term: each
  operation's result is read where it is written and nowhere else.
-/
import proofs.«162068_j70523363000699_2_alg».proof.Proof.RefRun
import Idealize.ShloMosaic.PureOps.Ideal

noncomputable section

namespace Cert.Gnn.Ref

open Cert.ReferenceIdeal Cert.ReferenceIdeal.Gen Idealize.ShloMosaic Idealize.ShloMosaic.TcCoe Idealize.SL.Sem Idealize.ShloMosaic.StableHlo

variable {F : FTy → Type} [FloatOps F]

/-- The neighbour index, a negative entry wrapped by the table's 50000 rows, with a trailing unit axis. -/
def nbr (idx : (⟨S50000x32, .i32⟩ : BufTy).Contents (Elt F)) : (⟨S50000x32x1, .i32⟩ : BufTy).Contents (Elt F) :=
  broadcastInDim S50000x32x1 ![0, 1] bcast_S50000x32_S50000x32x1_0_1
    (select (cmpi .slt idx (broadcastInDim S50000x32 ![] bcast_S_S50000x32 (constantI S_ 32 0#32)))
      (addi idx (broadcastInDim S50000x32 ![] bcast_S_S50000x32 (constantI S_ 32 50000#32))) idx)

/-- A point's position minus each neighbour's. -/
def diff (pos : (⟨S50000x3, .f32⟩ : BufTy).Contents (Elt F)) (idx : (⟨S50000x32, .i32⟩ : BufTy).Contents (Elt F)) : (⟨S50000x32x3, .f32⟩ : BufTy).Contents (Elt F) :=
  subf (broadcastInDim S50000x32x3 ![0, 1, 2] bcast_S50000x1x3_S50000x32x3_0_1_2
      (broadcastInDim S50000x1x3 ![0, 2] bcast_S50000x3_S50000x1x3_0_2 pos))
    (Host.gather gather_S50000x3_S50000x32x1_S50000x32x3_2_0_n_n_0_2_13 pos (nbr (F := F) idx))

/-- The squared distance to each neighbour, with a trailing unit axis. -/
def sqd (pos : (⟨S50000x3, .f32⟩ : BufTy).Contents (Elt F)) (idx : (⟨S50000x32, .i32⟩ : BufTy).Contents (Elt F)) : (⟨S50000x32x1, .f32⟩ : BufTy).Contents (Elt F) :=
  broadcastInDim S50000x32x1 ![0, 1] bcast_S50000x32_S50000x32x1_0_1
    (Host.reduceAdd (mulf (diff pos idx) (diff pos idx)) (constant S_ .f32 0x00000000#32)
      reducesTo_S50000x32x3_S50000x32_d2 h_S_)

/-- Where the squared distance is the zero word's value. -/
def isZero (pos : (⟨S50000x3, .f32⟩ : BufTy).Contents (Elt F)) (idx : (⟨S50000x32, .i32⟩ : BufTy).Contents (Elt F)) : (⟨S50000x32x1, .i1⟩ : BufTy).Contents (Elt F) :=
  cmpf .oeq (sqd pos idx) (broadcastInDim S50000x32x1 ![] bcast_S_S50000x32x1 (constant S_ .f32 0x00000000#32))

/-- The distance: one half where the squared distance is zero, the square root elsewhere. -/
def dist (pos : (⟨S50000x3, .f32⟩ : BufTy).Contents (Elt F)) (idx : (⟨S50000x32, .i32⟩ : BufTy).Contents (Elt F)) : (⟨S50000x32x1, .f32⟩ : BufTy).Contents (Elt F) :=
  select (isZero pos idx)
    (broadcastInDim S50000x32x1 ![] bcast_S_S50000x32x1 (id (constant S_ .f32 0x3F000000#32)))
    (Host.sqrt (select (isZero pos idx)
      (broadcastInDim S50000x32x1 ![] bcast_S_S50000x32x1 (id (constant S_ .f32 0x3F800000#32)))
      (sqd pos idx)))

/-- The neighbour features divided by the distance. -/
def quot (h : (⟨S50000x64, .f32⟩ : BufTy).Contents (Elt F)) (pos : (⟨S50000x3, .f32⟩ : BufTy).Contents (Elt F)) (idx : (⟨S50000x32, .i32⟩ : BufTy).Contents (Elt F)) :
    (⟨S50000x32x64, .f32⟩ : BufTy).Contents (Elt F) :=
  Host.divf (Host.gather gather_S50000x64_S50000x32x1_S50000x32x64_2_0_n_n_0_2_164 h (nbr (F := F) idx))
    (broadcastInDim S50000x32x64 ![0, 1, 2] bcast_S50000x32x1_S50000x32x64_0_1_2 (dist pos idx))

/-- The quotient as one row of 2048 numbers per point. -/
def rows (h : (⟨S50000x64, .f32⟩ : BufTy).Contents (Elt F)) (pos : (⟨S50000x3, .f32⟩ : BufTy).Contents (Elt F)) (idx : (⟨S50000x32, .i32⟩ : BufTy).Contents (Elt F)) :
    (⟨S50000x2048, .f32⟩ : BufTy).Contents (Elt F) :=
  fun i => shapeCast S50000x2048 (quot h pos idx) shapeCasts_S50000x32x64_S50000x2048 i

/-- The dense layer before the slope: the product with the weights plus the bias row on every row. -/
def dense (A : (⟨S50000x2048, .f32⟩ : BufTy).Contents (Elt F)) (W : (⟨S2048x64, .f32⟩ : BufTy).Contents (Elt F)) (b : (⟨S1x64, .f32⟩ : BufTy).Contents (Elt F)) :
    (⟨S50000x64, .f32⟩ : BufTy).Contents (Elt F) :=
  addf (Host.dotGeneral dot_S50000x2048_S2048x64_S50000x64_1_0_0_1_n_n none A W)
    (broadcastInDim S50000x64 ![0, 1] bcast_S1x64_S50000x64_0_1 b)

/-- The leaky slope as the host spells it: compare with a spread zero word, multiply by the spread slope word, select. -/
def slope (v : (⟨S50000x64, .f32⟩ : BufTy).Contents (Elt F)) : (⟨S50000x64, .f32⟩ : BufTy).Contents (Elt F) :=
  select (cmpf .oge v (broadcastInDim S50000x64 ![] bcast_S_S50000x64 (constant S_ .f32 0x00000000#32))) v
    (mulf (broadcastInDim S50000x64 ![] bcast_S_S50000x64 (id (constant S_ .f32 0x3C23D70A#32))) v)

/-- The reference's result. -/
def result (h : (⟨S50000x64, .f32⟩ : BufTy).Contents (Elt F)) (pos : (⟨S50000x3, .f32⟩ : BufTy).Contents (Elt F)) (idx : (⟨S50000x32, .i32⟩ : BufTy).Contents (Elt F))
    (W : (⟨S2048x64, .f32⟩ : BufTy).Contents (Elt F)) (b : (⟨S1x64, .f32⟩ : BufTy).Contents (Elt F)) : (⟨S50000x64, .f32⟩ : BufTy).Contents (Elt F) :=
  slope (dense (rows h pos idx) W b)

attribute [local irreducible] Host.reduceAdd Host.gather Host.sqrt Host.divf in
set_option maxRecDepth 16384 in
set_option maxHeartbeats 1000000 in
/-- The fold over the operations, read at the result buffer, is that term of the argument buffers' contents. -/
theorem result_eq (V : Valuation τ sig (Elt F)) :
    after (RefRun.ops (F := F)) V (main_v33 : DevRef τ sig)
      = result (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument buffer. -/
theorem args_eq (V : Valuation τ sig (Elt F)) :
    after (RefRun.ops (F := F)) V (main_arg0 : DevRef τ sig) = V (main_arg0 : DevRef τ sig)
    ∧ after (RefRun.ops (F := F)) V (main_arg1 : DevRef τ sig) = V (main_arg1 : DevRef τ sig)
    ∧ after (RefRun.ops (F := F)) V (main_arg2 : DevRef τ sig) = V (main_arg2 : DevRef τ sig)
    ∧ after (RefRun.ops (F := F)) V (main_arg3 : DevRef τ sig) = V (main_arg3 : DevRef τ sig)
    ∧ after (RefRun.ops (F := F)) V (main_arg4 : DevRef τ sig) = V (main_arg4 : DevRef τ sig) := by
  refine ⟨?_, ?_, ?_, ?_, ?_⟩ <;> after_results_simp

/-- The reference's run, read: the result buffer ends at the term above of the launch contents of the arguments,
    and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v33).trans (result_eq _), (h c main_arg0).trans (args_eq _).1, (h c main_arg1).trans (args_eq _).2.1,
        (h c main_arg2).trans (args_eq _).2.2.1, (h c main_arg3).trans (args_eq _).2.2.2.1,
        (h c main_arg4).trans (args_eq _).2.2.2.2⟩)
    (RefRun.run_all m ρ)

end Cert.Gnn.Ref

end
-- ==== Proof.KernelHost.lean ====
/-
  What the kernel's region finds in the arrays it stages.

  Before the region the kernel's program runs the same host operations as the reference up to the quotient of the
  neighbour features by the distance, then changes the quotient's float format, lays it out as 2048 numbers per point,
  and changes the weights' float format. On the extended reals a change of format is the identity, so the staged
  matrix A holds, entry by entry, the reference's rows, and the staged weights are the weight argument.
-/
import proofs.«162068_j70523363000699_2_alg».proof.Proof.Gen.KernelIdeal.Frame
import proofs.«162068_j70523363000699_2_alg».proof.Proof.RefTerm
import Idealize.ShloMosaic.Lib.ValueIdx

noncomputable section

namespace Cert.Gnn.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

attribute [local irreducible] Host.reduceAdd Host.gather Host.sqrt Host.divf in
set_option maxRecDepth 16384 in
set_option maxHeartbeats 1000000 in
/-- The staged matrix A is the reference's rows of the kernel's own arguments: the quotient of the neighbour features
    by the distance, laid out as 2048 numbers per point (the change of format in between is the identity). -/
theorem staged_A (c : Dev nD) :
    (V m c main_v30 : S50000x2048.Idx → EReal)
      = Cert.Gnn.Ref.rows (F := Ideal) (m ((c : Thread nD τ).loc main_arg0)) (m ((c : Thread nD τ).loc main_arg1))
          (m ((c : Thread nD τ).loc main_arg2)) := by
  dsimp only [V]
  simp only [hostOps0, hostOps0_1, hostOps0_2, hostOps0_3, hostOps0_4, List.flatten_cons, List.flatten_nil,
    List.append_nil, List.cons_append, List.nil_append]
  after_results_simp
  rfl

set_option maxRecDepth 16384 in
/-- The staged weights are the weight argument (its change of format is the identity). -/
theorem staged_W (c : Dev nD) :
    (V m c main_v31 : S2048x64.Idx → EReal) = m ((c : Thread nD τ).loc main_arg3) := by
  dsimp only [V]
  simp only [hostOps0, hostOps0_1, hostOps0_2, hostOps0_3, hostOps0_4, List.flatten_cons, List.flatten_nil,
    List.append_nil, List.cons_append, List.nil_append]
  after_results_simp
  rfl

end Cert.Gnn.Kernel

end
-- ==== Proof.RefValue.lean ====
/-
  The reference's result at an entry is the specification's entry.

  Entry (p, q) of the host's product of the 50000 × 2048 rows with the weights is the sum over k of
  rows[p, k] · W[k, q]; the bias row spread over the rows adds b[q]; the slope, spelt with spread scalars, acts entry
  by entry. So the reference's result at (p, q) is the leaky slope of the dense layer's entry over row p.
-/
import proofs.«162068_j70523363000699_2_alg».proof.Proof.RefTerm
import proofs.«162068_j70523363000699_2_alg».proof.Proof.Spec
import Idealize.ShloMosaic.Lib.Pipeline.Value

noncomputable section

namespace Cert.Gnn.Ref

open Cert.ReferenceIdeal Cert.ReferenceIdeal.Gen Idealize.ShloMosaic Idealize.ShloMosaic.ValueIdx Cert.Bridge

/-- A scalar spread over the result's shape, read at an index, is the scalar. -/
theorem spread_apply (x : (⟨S_, .f32⟩ : BufTy).Contents (Elt Ideal)) (j : S50000x64.Idx) :
    broadcastInDim S50000x64 ![] bcast_S_S50000x64 x j = x ix0 :=
  broadcastInDim_apply _ _ x j ix0 fun a => a.elim0

/-- The bias row spread over the rows, read at (p, q), is the row's q-th entry. -/
theorem bias_apply (b : (⟨S1x64, .f32⟩ : BufTy).Contents (Elt Ideal)) (p : Fin 50000) (q : Fin 64) :
    broadcastInDim S50000x64 ![0, 1] bcast_S1x64_S50000x64_0_1 b (ix2 p q) = b (ix2 (0 : Fin 1) q) :=
  broadcastInDim_apply _ _ b (ix2 p q) (ix2 (0 : Fin 1) q) fun a => by
    match a with
    | ⟨0, _⟩ => rfl
    | ⟨1, _⟩ => rfl

/-- The slope as the host spells it, read at an index. -/
theorem slope_apply (v : (⟨S50000x64, .f32⟩ : BufTy).Contents (Elt Ideal)) (j : S50000x64.Idx) :
    slope (F := Ideal) v j = Spec.leaky (v j) := by
  unfold slope
  rw [select_apply, cmpf_apply, mulf_apply, spread_apply, spread_apply]
  rfl

/-- The dense layer before the slope, read at (p, q). -/
theorem dense_apply (A : (⟨S50000x2048, .f32⟩ : BufTy).Contents (Elt Ideal)) (W : (⟨S2048x64, .f32⟩ : BufTy).Contents (Elt Ideal))
    (b : (⟨S1x64, .f32⟩ : BufTy).Contents (Elt Ideal)) (p : Fin 50000) (q : Fin 64) :
    dense (F := Ideal) A W b (ix2 p q) = Cert.Bridge.Spec.head (LayerAt.mat A) (LayerAt.mat W) (LayerAt.row b) p q := by
  unfold dense
  rw [addf_apply, bias_apply]
  exact congrArg (· + b (ix2 (0 : Fin 1) q))
    (LibMatmul.dotGeneral_apply (M := 50000) (K := 2048) (N := 64) none _ A W p q)

/-- The reference's result at any index, through its two coordinates. -/
theorem result_apply (h : (⟨S50000x64, .f32⟩ : BufTy).Contents (Elt Ideal)) (pos : (⟨S50000x3, .f32⟩ : BufTy).Contents (Elt Ideal))
    (idx : (⟨S50000x32, .i32⟩ : BufTy).Contents (Elt Ideal)) (W : (⟨S2048x64, .f32⟩ : BufTy).Contents (Elt Ideal))
    (b : (⟨S1x64, .f32⟩ : BufTy).Contents (Elt Ideal)) (j : S50000x64.Idx) :
    result (F := Ideal) h pos idx W b j
      = Spec.out (LayerAt.mat (rows (F := Ideal) h pos idx)) (LayerAt.mat W) (LayerAt.row b) (j 0) (j 1) := by
  unfold result
  rw [slope_apply]
  refine congrArg Spec.leaky ?_
  exact (congrArg (dense (F := Ideal) (rows h pos idx) W b) (eq_ix2 j)).trans (dense_apply _ W b (j 0) (j 1))

end Cert.Gnn.Ref

end
-- ==== Proof.Bridge.lean ====
/-
  The two results are one function of the arguments.

  The kernel's result array is the specification's entry over the arrays its region stages; the staged matrix A is,
  entry by entry, the reference's 2048-wide rows (the change of float format between them is the identity on the
  extended reals), the staged weights are the weight argument for the same reason, and the bias is the bias
  argument. The reference's result at an entry is the specification's entry over those same rows, weights and bias.
  Nothing here uses finiteness of the inputs: the two sides are the same sums of the same products.
-/
import proofs.«162068_j70523363000699_2_alg».proof.Proof.KernelArray
import proofs.«162068_j70523363000699_2_alg».proof.Proof.KernelHost
import proofs.«162068_j70523363000699_2_alg».proof.Proof.RefValue

noncomputable section

namespace Cert.Gnn

open Cert.KernelIdeal Cert.KernelIdeal.Gen Idealize.ShloMosaic Idealize.ShloMosaic.TcCoe Idealize.SL.Sem
open Idealize.ShloMosaic.ValueIdx Cert.Bridge

variable (m : (ℓ : Loc nD τ sig) → Buf (Elt Ideal) ℓ) (ρ : Dev nD → PrngReg)

/-- The reference's result term of the kernel's arguments is the kernel's result array. -/
theorem results_agree (c : Dev nD) :
    Ref.result (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = Kernel.G (V m c main_v30) (V m c main_v31) (V m c main_arg4) := by
  funext j
  rw [Ref.result_apply]
  unfold Kernel.G
  rw [Kernel.staged_A, Kernel.staged_W, V_main_arg4]

/-- The kernel's run, read: the result array ends at the specification over the staged arrays, the arguments unchanged. -/
theorem kernel_run : θ_run defs (onTc (τ := τ) (main (F := Ideal))) ⟨m, fun _ => 0, ρ⟩ fun r => ∀ c : Dev nD,
      r.2.mem ((c : Thread nD τ).loc main_v32) = Kernel.G (V m c main_v30) (V m c main_v31) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (Kernel.final m c), (h c).2⟩)
    (Cert.KernelIdeal.Value.run_blocks m ρ)

end Cert.Gnn

end
-- ==== Proof.lean ====
/-
  A message-passing layer over a point cloud: the kernel against its reference, on the extended reals.

  Both programs take point features h (50000 × 64), positions pos (50000 × 3), 32 neighbour indices per point,
  weights (2048 × 64) and a bias row. Both gather each point's neighbours' features and positions on the host, divide
  the features by the distance to the neighbour (one half where the squared distance is zero), and lay the quotients
  out as one row of 2048 numbers per point. The reference multiplies that 50000 × 2048 matrix with the weights in
  one host product, adds the bias to every row and applies the leaky slope. The kernel changes the matrix's and the
  weights' float format (the identity on the extended reals) and does the product, the bias and the slope in a
  pipelined region of 25 grid points, each on a block of 2000 rows.

  The algebraic claim holds because a result row depends on the same row of the matrix alone: point t's block of
  the result is block t of ONE function of the whole arrays, entry (p, q) being the leaky slope of
  (sum over k of A[p, k] · W[k, q]) + b[q]; the 25 blocks tile the rows; and the host product read at (p, q) is the
  same sum. No law that needs finiteness is used, so the precondition is never opened. The ideal pass rewrote
  nothing, so the idealized kernel is the kernel's own text and the preservation claim is trivial. The two kernel
  frames are the generated frame proofs; the reference's frame is its run with the result dropped.
-/
import proofs.«162068_j70523363000699_2_alg».proof.Defs
import proofs.«162068_j70523363000699_2_alg».proof.Proof.Gen.Kernel
import proofs.«162068_j70523363000699_2_alg».proof.Proof.Gen.Kernel.Skeleton
import proofs.«162068_j70523363000699_2_alg».proof.Proof.Gen.Kernel.Launch
import proofs.«162068_j70523363000699_2_alg».proof.Proof.Gen.Kernel.Points
import proofs.«162068_j70523363000699_2_alg».proof.Proof.Gen.Kernel.Frame
import proofs.«162068_j70523363000699_2_alg».proof.Proof.Gen.KernelIdeal
import proofs.«162068_j70523363000699_2_alg».proof.Proof.Gen.KernelIdeal.Skeleton
import proofs.«162068_j70523363000699_2_alg».proof.Proof.Gen.KernelIdeal.Launch
import proofs.«162068_j70523363000699_2_alg».proof.Proof.Gen.KernelIdeal.Points
import proofs.«162068_j70523363000699_2_alg».proof.Proof.Gen.KernelIdeal.Frame
import proofs.«162068_j70523363000699_2_alg».proof.Proof.Gen.KernelIdeal.Value
import proofs.«162068_j70523363000699_2_alg».proof.Proof.Gen.ReferenceIdeal
import proofs.«162068_j70523363000699_2_alg».proof.Proof.Gen.Pre_finite_inputs
import proofs.«162068_j70523363000699_2_alg».proof.Proof.Bridge
import Idealize.ShloMosaic.Adequacy
import Idealize.ShloMosaic.Init

noncomputable section

namespace Cert.Proof

open Idealize.ShloMosaic Idealize.SL.Sem

/-- The kernel as printed terminates, faults nowhere and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.Gnn.Ref.run (F := Ideal) m ρ)

/-- The ideal pass rewrote no operation. -/
theorem preserves : Cert.preserves_Kernel_KernelIdeal := trivial

/-- From memories agreeing on the arguments both idealized programs run and end with the same result array: the
    kernel's is the specification over what its region stages, the reference's the same specification over its own
    rows, and the staged arrays are those rows, the weights and the bias. -/
theorem algebraic : Cert.algebraic_KernelIdeal_ReferenceIdeal := by
  intro m ρ m' ρ' _ hagree
  refine ⟨fun c => Cert.Gnn.Kernel.G (Cert.KernelIdeal.Gen.V m c Cert.KernelIdeal.main_v30)
      (Cert.KernelIdeal.Gen.V m c Cert.KernelIdeal.main_v31) (Cert.KernelIdeal.Gen.V m c Cert.KernelIdeal.main_arg4),
    Cert.Gnn.kernel_run m ρ, ?_⟩
  refine (θ_run Cert.ReferenceIdeal.defs _ _).mono (fun _ h c => ⟨(h c).1.trans ?_, (h c).2⟩)
    (Cert.Gnn.Ref.run (F := Ideal) m' ρ')
  rw [(hagree c).1, (hagree c).2.1, (hagree c).2.2.1, (hagree c).2.2.2.1, (hagree c).2.2.2.2]
  exact Cert.Gnn.results_agree m c

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
